-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : FVec F S8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192 : Shape := ⟨1, ![8192]⟩
abbrev S1x1 : Shape := ⟨2, ![1, 1]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S1 : Shape := ⟨1, ![1]⟩
abbrev S1x1x1 : Shape := ⟨3, ![1, 1, 1]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S2048, .f32⟩
  | .local _ .vmem, ⟨1, _⟩ => ⟨S2048, .f32⟩
  | .local _ .vmem, ⟨2, _⟩ => ⟨S2048, .f32⟩
  | .local _ .vmem, ⟨3, _⟩ => ⟨S2048, .f32⟩
  | .local _ .vmem, ⟨4, _⟩ => ⟨S1x1, .f32⟩
  | .local _ .vmem, ⟨5, _⟩ => ⟨S1x1, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg0 : BitVec 32 := BitVec.ofNat 32 (i 0).val
  let c3_i32 : BitVec 32 := 3#32
  let v23 : BitVec 1 := Scalar.cmpi .eq arg0 c3_i32
  let arg1 : BitVec 32 := BitVec.ofNat 32 (i 1).val
  let c3_i32_7 : BitVec 32 := 3#32
  let v24 : BitVec 1 := Scalar.cmpi .eq arg1 c3_i32_7
  let v25 : BitVec 1 := Scalar.andi v23 v24
  let v26 : BitVec 32 := Scalar.extui v25
  let c0_i32_8 : BitVec 32 := 0#32
  let v27 : BitVec 1 := Scalar.cmpi .ne v26 c0_i32_8
  v27

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048_S2048_0 : ∀ a, (![0] : Fin 1 → Nat) a + S2048.size a ≤ S2048.size a
  h_S2048 : 0 < S2048.numel
  shapeCasts_S2048_S2048x1 : S2048.ShapeCasts S2048x1
  shapeCasts_S2048_S1x2048 : S2048.ShapeCasts S1x2048
  broadcasts_S2048x1_S2048x2048 : S2048x1.Broadcasts S2048x2048
  broadcasts_S1x2048_S2048x2048 : S1x2048.Broadcasts S2048x2048
  shapeCasts_S2048x2048_S1x2048x2048 : S2048x2048.ShapeCasts S1x2048x2048
  reduces_S1x2048x2048_S1 : S1x2048x2048.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048.size a ≤ S8192.size a
  hwx0_0 : ∀ i : grid0.Coords, EltTy.bits .f32 = 32 ∨ (Rect.block (s := S8192) S2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S8192.size a
  hwx0_1 : ∀ i : grid0.Coords, EltTy.bits .f32 = 32 ∨ (Rect.block (s := S8192) S2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192x1, .f32⟩
  | .hbm, ⟨3, _⟩ => ⟨S1x8192, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S_d0_1 : S8192x8192.ReducesTo [0, 1] S_
  h_S_ : 0 < S_.numel

variable [Facts₀]

class Facts : Prop extends Facts₀ where

variable [Facts]
-- ==== Proof.TileSums.lean ====
/-
  The arithmetic of the pairwise squared-distance sum, with no program in sight.

  For two sequences `u v` of 8192 extended reals the quantity is `∑ a, ∑ b, (u a - v b)·(u a - v b)`. Cut each
  sequence into 4 consecutive runs of 2048 entries; the run pair `(i, j)` contributes the TILE sum
  `∑ p, ∑ q, (u (2048·i + p) - v (2048·j + q))²`, and visiting the 16 run pairs in row-major order
  (`k ↦ (k / 4, k % 4)`) and adding the tile sums one after the other gives the whole sum back. Only that addition of
  extended reals is commutative and associative is used (a sum over a finite type is re-indexed along bijections and a
  double sum is swapped): no term needs to be finite.
-/
import Idealize.ShloMosaic.Lib.ValueIdx
import Idealize.ShloMosaic.PureOps.Ideal.Laws

open scoped BigOperators

noncomputable section

namespace Cert.TileSums

/-- The squared difference of two extended reals, as the product of the difference with itself. -/
def sqDiff (a b : EReal) : EReal := (a - b) * (a - b)

/-- Entry `p` of run `i`: position `2048·i + p` of the sequence. -/
def pos (i : Fin 4) (p : Fin 2048) : Fin 8192 := ⟨2048 * i.val + p.val, by have := i.isLt; have := p.isLt; omega⟩

/-- The sum over the tile of run `i` of `u` against run `j` of `v`. -/
def tile (u v : Fin 8192 → EReal) (i j : Fin 4) : EReal :=
  ∑ p : Fin 2048, ∑ q : Fin 2048, sqDiff (u (pos i p)) (v (pos j q))

/-- The whole sum, over all pairs of positions. -/
def total (u v : Fin 8192 → EReal) : EReal := ∑ a : Fin 8192, ∑ b : Fin 8192, sqDiff (u a) (v b)

/-- The tile visited `k`-th in row-major order: runs `k / 4` and `k % 4`. -/
def tileAt (u v : Fin 8192 → EReal) (k : ℕ) : EReal :=
  tile u v ⟨k / 4 % 4, Nat.mod_lt _ (by decide)⟩ ⟨k % 4, Nat.mod_lt _ (by decide)⟩

/-- The positions are the pairs (run, entry of the run). -/
def runEquiv : Fin 4 × Fin 2048 ≃ Fin 8192 where
  toFun x := pos x.1 x.2
  invFun a := (⟨a.val / 2048, by have := a.isLt; omega⟩, ⟨a.val % 2048, Nat.mod_lt _ (by decide)⟩)
  left_inv x := by
    obtain ⟨i, p⟩ := x
    have hi := i.isLt
    have hp := p.isLt
    refine Prod.ext (Fin.ext ?_) (Fin.ext ?_)
    · show (2048 * i.val + p.val) / 2048 = i.val
      omega
    · show (2048 * i.val + p.val) % 2048 = p.val
      omega
  right_inv a := by
    apply Fin.ext
    show 2048 * (a.val / 2048) + a.val % 2048 = a.val
    omega

/-- A sum over the positions is the sum over the runs of the sums over each run's entries. -/
theorem sum_runs {M : Type*} [AddCommMonoid M] (h : Fin 8192 → M) :
    ∑ a : Fin 8192, h a = ∑ i : Fin 4, ∑ p : Fin 2048, h (pos i p) := by
  rw [← Equiv.sum_comp runEquiv h, Fintype.sum_prod_type]
  rfl

/-- The whole sum is the sum of the 16 tile sums. -/
theorem total_eq_tiles (u v : Fin 8192 → EReal) : total u v = ∑ i : Fin 4, ∑ j : Fin 4, tile u v i j := by
  unfold total tile
  rw [sum_runs]
  refine Finset.sum_congr rfl fun i _ => ?_
  -- inside run `i`: cut the inner positions into runs too, then bring the run index `j` outside the entry index `p`
  rw [Finset.sum_congr rfl fun p _ => sum_runs fun b => sqDiff (u (pos i p)) (v b)]
  exact Finset.sum_comm

/-- The grid's points in row-major order are the pairs of runs. -/
def pointEquiv : Fin 4 × Fin 4 ≃ Fin 16 where
  toFun x := ⟨4 * x.1.val + x.2.val, by have := x.1.isLt; have := x.2.isLt; omega⟩
  invFun k := (⟨k.val / 4 % 4, Nat.mod_lt _ (by decide)⟩, ⟨k.val % 4, Nat.mod_lt _ (by decide)⟩)
  left_inv x := by
    obtain ⟨i, j⟩ := x
    have hi := i.isLt
    have hj := j.isLt
    refine Prod.ext (Fin.ext ?_) (Fin.ext ?_)
    · show (4 * i.val + j.val) / 4 % 4 = i.val
      omega
    · show (4 * i.val + j.val) % 4 = j.val
      omega
  right_inv k := by
    have hk := k.isLt
    apply Fin.ext
    show 4 * (k.val / 4 % 4) + k.val % 4 = k.val
    omega

/-- Adding the tile sums in the order the points are visited gives the whole sum. -/
theorem sum_tileAt (u v : Fin 8192 → EReal) : ∑ k ∈ Finset.range 16, tileAt u v k = total u v := by
  rw [total_eq_tiles, Finset.sum_range fun k => tileAt u v k, ← Equiv.sum_comp pointEquiv, Fintype.sum_prod_type]
  refine Finset.sum_congr rfl fun i _ => Finset.sum_congr rfl fun j _ => ?_
  have hi := i.isLt
  have hj := j.isLt
  unfold tileAt
  congr 1 <;> apply Fin.ext
  · show (4 * i.val + j.val) / 4 % 4 = i.val
    omega
  · show (4 * i.val + j.val) % 4 = j.val
    omega

open Idealize.ShloMosaic in
/-- What both programs do last with the sum, held as a rank-0 array: its square root, divided by 8192 (the word
    `0x46000000`). Both programs apply this same term, so it is never opened. -/
def finish (s : FVec Ideal ⟨0, ![]⟩ .f32) : FVec Ideal ⟨0, ![]⟩ .f32 :=
  Host.divf (Host.sqrt s) (constant (F := Ideal) ⟨0, ![]⟩ .f32 0x46000000#32)

open Idealize.ShloMosaic in
/-- The result both programs are shown to end with: the last step applied to the whole sum. -/
def result (u v : Fin 8192 → EReal) : FVec Ideal ⟨0, ![]⟩ .f32 := finish fun _ => total u v

end Cert.TileSums

end
-- ==== Proof.RefValue.lean ====
/-
  The reference, read at its one result index: jnp broadcasts `z_s` down the columns and `z_t` along the rows of an
  8192 × 8192 array, subtracts, squares, sums every entry starting from zero, takes the square root and divides by
  8192. Entry `(a, b)` of the squared array is `(z_s a - z_t b)·(z_s a - z_t b)`, so the sum over all index pairs is
  the double sum over `a` and `b`, the zero it starts from adds nothing, and the result is the shared last step applied
  to the whole sum.
-/
import proofs.«108145_j47476568490545_1_alg».proof.Proof.Gen.ReferenceIdeal.Run
import proofs.«108145_j47476568490545_1_alg».proof.Proof.Gen.ReferenceIdeal.Read
import proofs.«108145_j47476568490545_1_alg».proof.Proof.TileSums
import Idealize.ShloMosaic.Lib.ValueIdx
import Idealize.ShloMosaic.PureOps.Ideal.Laws

open scoped BigOperators

noncomputable section

namespace Cert.ReferenceIdeal.RefValue

open Cert.ReferenceIdeal Cert.ReferenceIdeal.Read Idealize.ShloMosaic Idealize.ShloMosaic.ValueIdx Cert.TileSums

/-- A length-8192 array as a sequence of extended reals. -/
abbrev seq (x : (⟨S8192, .f32⟩ : BufTy).Contents (Elt Ideal)) : Fin 8192 → EReal := fun a => x (ix1 a)

/-- Entry `(a, b)` of the squared differences: the two broadcasts read `z_s` at the row and `z_t` at the column. -/
theorem squares_apply (x0 x1 : (⟨S8192, .f32⟩ : BufTy).Contents (Elt Ideal)) (a b : Fin 8192) :
    val_main_v5 (F := Ideal) x0 x1 (ix2 a b) = sqDiff (seq x0 a) (seq x1 b) := by
  rw [val_main_v5_apply, val_main_v4_apply, val_main_v2_apply, val_main_v3_apply, val_main_v0_apply, val_main_v1_apply]
  have e0 : idx_main_v0 (idx_main_v2 (ix2 a b)) = ix1 a := funext fun d => match d with | ⟨0, _⟩ => rfl
  have e1 : idx_main_v1 (idx_main_v3 (ix2 a b)) = ix1 b := funext fun d => match d with | ⟨0, _⟩ => rfl
  rw [e0, e1]
  rfl

/-- The reduction: zero plus the sum over every index pair is the double sum. -/
theorem sum_apply (x0 x1 : (⟨S8192, .f32⟩ : BufTy).Contents (Elt Ideal)) :
    val_main_v6 (F := Ideal) x0 x1 = fun _ => total (seq x0) (seq x1) := by
  funext i
  rw [val_main_v6_apply, val_main_cst_apply, sum_idx2]
  show Ideal.ofBits .f32 0x00000000#32 + _ = _
  rw [Ideal.ofBits_zero_f32, zero_add]
  unfold total
  exact Finset.sum_congr rfl fun a _ => Finset.sum_congr rfl fun b _ => squares_apply x0 x1 a b

/-- The reference's result is the shared last step applied to the whole sum. -/
theorem result_eq (x0 x1 : (⟨S8192, .f32⟩ : BufTy).Contents (Elt Ideal)) :
    val_main_v8 (F := Ideal) x0 x1 = result (seq x0) (seq x1) := by
  unfold val_main_v8 val_main_v7 val_main_cst_0 result finish
  rw [sum_apply]

end Cert.ReferenceIdeal.RefValue

end
-- ==== Proof.Pieces.lean ====
/-
  What one visit of a tile leaves behind, read off the stores the body makes, at any float instance.

  The body keeps a one-entry accumulator. At the first tile it stores zero there, reads that back and stores
  `accumulator + tile sum`; at every other tile it reads what the tile before left and stores `that + tile sum`; at the
  last tile it then copies the accumulator to the one-entry output block. Each of these stores covers the whole
  one-entry buffer through the rectangle at offset zero, so what a buffer holds afterwards is the payload of the last
  store into it, and a load of a whole buffer reads its contents. Hence: the accumulator after the first tile is the
  update applied to the zero entry, after any later tile the update applied to what the previous tile left, and the
  output block after the last tile equals the accumulator.
-/
import proofs.«108145_j47476568490545_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic
  Idealize.SL.Sem

variable {F : FTy → Type} [FloatOps F]

/-- The offset of the one-entry buffers' whole rectangle is zero on both axes, -/
theorem off2 : (![0, 0] : Fin 2 → Nat) = fun _ => 0 := funext fun a => by fin_cases a <;> rfl
/-- and so is the offset of a run's whole rectangle on its one axis. -/
theorem off1 : (![0] : Fin 1 → Nat) = fun _ => 0 := funext fun a => by fin_cases a <;> rfl

/-- At a tile that is neither first nor last the accumulator ends at the update of what it held. -/
theorem acc_mid (c : Dev nD) (i : grid0.Coords) (a2 : Memref sig .tc .vmem S2048 .f32) (h2 : a2.IsWhole) (a3 : Memref sig .tc .vmem S2048 .f32) (h3 : a3.IsWhole)
    (a4 : Memref sig .tc .vmem S1x1 .f32) (h4 : a4.IsWhole) (a5 : Memref sig .tc .vmem S1x1 .f32) (h5 : a5.IsWhole) (hc0 : ¬cond0_0 i) (hc1 : ¬cond0_1 i)
    (x0 x1 : Vec F S2048 .f32) (xs0 : Vec F S1x1 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero (S := S1x1) off2]
  simp only [View.readAt_eq_ld, h2.read_unread, h3.read_unread, h5.read_unread, View.ld_unit_zero (S := S2048) off1,
    View.ld_unit_zero (S := S1x1) off2]

/-- At the last tile the accumulator ends at the update of what it held, -/
theorem acc_last (c : Dev nD) (i : grid0.Coords) (a2 : Memref sig .tc .vmem S2048 .f32) (h2 : a2.IsWhole) (a3 : Memref sig .tc .vmem S2048 .f32) (h3 : a3.IsWhole)
    (a4 : Memref sig .tc .vmem S1x1 .f32) (h4 : a4.IsWhole) (a5 : Memref sig .tc .vmem S1x1 .f32) (h5 : a5.IsWhole) (hc0 : ¬cond0_0 i) (hc1 : cond0_1 i)
    (x0 x1 : Vec F S2048 .f32) (xs0 : Vec F S1x1 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero (S := S1x1) off2]
  simp only [View.readAt_eq_ld, h2.read_unread, h3.read_unread, h5.read_unread, View.ld_unit_zero (S := S2048) off1,
    View.ld_unit_zero (S := S1x1) off2]

/-- and the output block is a copy of it: the body loads the accumulator back after its store and stores that. -/
theorem out_last (c : Dev nD) (i : grid0.Coords) (a2 : Memref sig .tc .vmem S2048 .f32) (h2 : a2.IsWhole) (a3 : Memref sig .tc .vmem S2048 .f32) (h3 : a3.IsWhole)
    (a4 : Memref sig .tc .vmem S1x1 .f32) (h4 : a4.IsWhole) (a5 : Memref sig .tc .vmem S1x1 .f32) (h5 : a5.IsWhole) (hc0 : ¬cond0_0 i) (hc1 : cond0_1 i)
    (x0 x1 : Vec F S2048 .f32) (xs0 : Vec F S1x1 .f32) :
    out0_C_2 c i a2 h2 a3 h3 a4 h4 a5 h5 hc0 hc1 x0 x1 xs0 = k0_pay2 x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero (S := S1x1) off2, View.readCov_unit_zero (S := S1x1) _ off2]
  simp only [View.readAt_eq_ld, h2.read_unread, h3.read_unread, h5.read_unread, View.ld_unit_zero (S := S2048) off1,
    View.ld_unit_zero (S := S1x1) off2]

/-- At the first tile the accumulator ends at the update of the zero entry it was just reset to. -/
theorem acc_first (c : Dev nD) (i : grid0.Coords) (a2 : Memref sig .tc .vmem S2048 .f32) (h2 : a2.IsWhole) (a3 : Memref sig .tc .vmem S2048 .f32) (h3 : a3.IsWhole)
    (a4 : Memref sig .tc .vmem S1x1 .f32) (h4 : a4.IsWhole) (a5 : Memref sig .tc .vmem S1x1 .f32) (h5 : a5.IsWhole) (hc0 : cond0_0 i) (hc1 : ¬cond0_1 i)
    (x0 x1 : Vec F S2048 .f32) :
    sout0_A_0 c i a2 h2 a3 h3 a4 h4 a5 h5 hc0 hc1 x0 x1 = k0_pay2 x0 x1 k0_pay1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) off2, View.readCov_unit_zero (S := S1x1) _ off2]
  simp only [View.readAt_eq_ld, h2.read_unread, h3.read_unread, View.ld_unit_zero (S := S2048) off1]

end Cert.KernelIdeal.Pieces

end
-- ==== Proof.TileValue.lean ====
/-
  One visit's update of the accumulator, read at the accumulator's one entry over the extended reals.

  From two loaded runs `v5`, `v7` of 2048 entries the body lays the first out as a column and the second as a row,
  repeats each to a 2048 × 2048 tile, subtracts and squares entrywise, so that entry `(p, q)` of the tile is
  `(v5 p - v7 q)·(v5 p - v7 q)`; it adds up every entry of the tile (the tile is first viewed with a leading unit axis,
  which only renames the entries, and the reduction into a one-entry shape is the sum over all of them), and adds
  that tile sum to what the accumulator held.
-/
import proofs.«108145_j47476568490545_1_alg».proof.Proof.Gen.KernelIdeal.Skeleton
import proofs.«108145_j47476568490545_1_alg».proof.Proof.TileSums
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.TileValue

open Cert.KernelIdeal Cert.KernelIdeal.Gen Idealize.ShloMosaic Idealize.ShloMosaic.ValueIdx Cert.TileSums

/-- A run laid out as a column: entry `(p, 0)` is the run's entry `p`. -/
theorem column_apply (x : FVec Ideal S2048 .f32) (h : S2048.ShapeCasts S2048x1) (p : Fin 2048) (u : Fin 1) :
    shapeCast S2048x1 x h (ix2 p u) = x (ix1 p) :=
  shapeCast_apply x h _ _ (by
    have hu : u.val = 0 := by omega
    rw [Shape.rowMajor_val_one, Shape.rowMajor_val_two]
    show p.val = p.val * 1 + u.val
    omega)

/-- The column repeated along the rows: entry `(p, q)` is the column's entry `(p, 0)`. -/
theorem spread_column_apply (x : FVec Ideal S2048x1 .f32) (h : S2048x1.Broadcasts S2048x2048) (p q : Fin 2048) :
    broadcastTo S2048x2048 x h (ix2 p q) = x (ix2 p (0 : Fin 1)) :=
  broadcastTo_apply x h _ _ fun a => match a with
    | ⟨0, _⟩ => by show p.val = if (2048 : Nat) = 1 then 0 else p.val; rw [if_neg (by decide)]
    | ⟨1, _⟩ => by show 0 = if (1 : Nat) = 1 then 0 else q.val; rw [if_pos rfl]

/-- The row repeated down the columns: entry `(p, q)` is the row's entry `(0, q)`. -/
theorem spread_row_apply (x : FVec Ideal S1x2048 .f32) (h : S1x2048.Broadcasts S2048x2048) (p q : Fin 2048) :
    broadcastTo S2048x2048 x h (ix2 p q) = x (ix2 (0 : Fin 1) q) :=
  broadcastTo_apply x h _ _ fun a => match a with
    | ⟨0, _⟩ => by show 0 = if (1 : Nat) = 1 then 0 else p.val; rw [if_pos rfl]
    | ⟨1, _⟩ => by show q.val = if (2048 : Nat) = 1 then 0 else q.val; rw [if_neg (by decide)]

/-- Entry `(p, q)` of the tile the body forms from two runs: the squared difference of the first run's entry `p` and
    the second run's entry `q`. -/
theorem square_apply (v5 v7 : FVec Ideal S2048 .f32) (hc : S2048.ShapeCasts S2048x1) (hr : S2048.ShapeCasts S1x2048)
    (hbc : S2048x1.Broadcasts S2048x2048) (hbr : S1x2048.Broadcasts S2048x2048) (p q : Fin 2048) :
    mulf (subf (broadcastTo S2048x2048 (shapeCast S2048x1 v5 hc) hbc) (broadcastTo S2048x2048 (shapeCast S1x2048 v7 hr) hbr))
        (subf (broadcastTo S2048x2048 (shapeCast S2048x1 v5 hc) hbc) (broadcastTo S2048x2048 (shapeCast S1x2048 v7 hr) hbr))
        (ix2 p q)
      = sqDiff (v5 (ix1 p)) (v7 (ix1 q)) := by
  rw [mulf_apply, subf_apply, spread_column_apply, spread_row_apply, column_apply, shapeCast_a_1a_apply]
  rfl

/-- Viewing a 2048 × 2048 array with a leading unit axis renames its entries along a bijection, so the sum over the
    entries is the same. -/
theorem sum_unit_axis (x : FVec Ideal S2048x2048 .f32) (h : S2048x2048.ShapeCasts S1x2048x2048) :
    ∑ i : S1x2048x2048.Idx, shapeCast S1x2048x2048 x h i = ∑ j : S2048x2048.Idx, x j :=
  Equiv.sum_comp (Shape.reshapeEquiv h) x

/-- The one-entry shape the tile is summed into has only unit axes. -/
theorem unit_axes : ∀ b : Fin S1.rank, S1.size b = 1 := fun b => by fin_cases b; rfl

/-- A one-entry vector viewed as 1 × 1 × 1, its entry extracted and repeated over the 1 × 1 shape, reads that vector at
    the index the view and the extraction name; stated over any one-entry vector, so that nothing of it is opened. -/
theorem extract_apply (r : FVec Ideal S1 .f32) (h1 : S1.ShapeCasts S1x1x1) (h2 : ∀ a, (![0, 0, 0] : Fin 3 → Nat) a < S1x1x1.size a)
    (y : S1x1.Idx) :
    broadcast S1x1 (extractAt ![0, 0, 0] (shapeCast S1x1x1 r h1) h2) y
      = r (Shape.reshapeEquiv h1 fun a => ⟨(![0, 0, 0] : Fin 3 → Nat) a, h2 a⟩) := rfl

/-- The update at the accumulator's entry: what it held plus the tile sum of the two runs. -/
theorem update_apply (v5 v7 : Vec Ideal S2048 .f32) (v17 : Vec Ideal S1x1 .f32) (y : S1x1.Idx) :
    k0_pay2 (F := Ideal) v5 v7 v17 y = v17 y + ∑ p : Fin 2048, ∑ q : Fin 2048, sqDiff (v5 (ix1 p)) (v7 (ix1 q)) := by
  unfold k0_pay2
  refine (congrFun (shapeCast_self _ _) y).trans ?_
  refine (addf_apply _ _ y).trans ?_
  refine congrArg (fun s : EReal => v17 y + s) ?_
  -- the entry added is the tile's reduction read at the index the extraction names,
  refine (extract_apply _ _ _ y).trans ?_
  -- which is the total over the tile,
  refine (Ideal.multiReduction_add_total _ 0x00000000#32 reduces_S1x2048x2048_S1 unit_axes (.inl rfl) rfl _).trans ?_
  -- over the tile without its leading unit axis,
  refine (sum_unit_axis _ _).trans ?_
  -- row by row and column by column
  refine (sum_idx2 _).trans ?_
  exact Finset.sum_congr rfl fun p _ => Finset.sum_congr rfl fun q _ => square_apply v5 v7 _ _ _ _ p q

/-- The entry the accumulator is reset to at the first tile is zero. -/
theorem reset_apply (y : S1x1.Idx) : k0_pay1 (F := Ideal) y = 0 := by
  unfold k0_pay1
  refine (congrFun (shapeCast_self _ _) y).trans ?_
  exact Ideal.ofBits_zero_f32

end Cert.KernelIdeal.TileValue

end
-- ==== Proof.BlockReads.lean ====
/-
  Which entries of the argument arrays a tile visit sees.

  The grid has 4 × 4 points, visited in row-major order: point `t` has coordinates `(t / 4, t % 4)`. The first
  input's block index is the first coordinate and the second input's the second, each block 2048 entries long, so at
  point `t` entry `p` of the first loaded run is entry `2048·(t / 4) + p` of `z_s` and entry `q` of the second is entry
  `2048·(t % 4) + q` of `z_t`: a block's coordinate is its index times its length plus the coordinate inside it.
-/
import proofs.«108145_j47476568490545_1_alg».proof.Proof.Gen.KernelIdeal.Frame
import proofs.«108145_j47476568490545_1_alg».proof.Proof.TileSums
import Idealize.ShloMosaic.Lib.ValueIdx
import Idealize.ShloMosaic.Lib.Pipeline.Value

set_option maxRecDepth 16384

noncomputable section

namespace Cert.KernelIdeal.BlockReads

open Cert.KernelIdeal Cert.KernelIdeal.Gen Idealize.ShloMosaic Idealize.ShloMosaic.TcCoe Idealize.ShloMosaic.ValueIdx
  Idealize.SL.Sem Cert.TileSums

variable {F : FTy → Type} [FloatOps F]
variable (m : (ℓ : Loc nD τ sig) → Buf (Elt F) ℓ)

/-- The block indices of the two inputs at a point, decided once over the sixteen points. -/
theorem block_index : ∀ t : Fin cfg0.N,
    win0_0.index t (0 : Fin 1) = t.val / 4 % 4 ∧ win0_1.index t (0 : Fin 1) = t.val % 4 :=
  (by decide +kernel : ∀ t : Fin grid0.N,
    win0_0.index t (0 : Fin 1) = t.val / 4 % 4 ∧ win0_1.index t (0 : Fin 1) = t.val % 4)

/-- The run of `z_s` met at point `t`, -/
abbrev rowRun (t : Fin cfg0.N) : Fin 4 := ⟨t.val / 4 % 4, Nat.mod_lt _ (by decide)⟩
/-- and the run of `z_t`. -/
abbrev colRun (t : Fin cfg0.N) : Fin 4 := ⟨t.val % 4, Nat.mod_lt _ (by decide)⟩

/-- Entry `p` of the first input's block at point `t` is `z_s` at position `2048·(t / 4) + p`. -/
theorem first_apply (c : Dev nD) (t : Fin cfg0.N) (p : Fin 2048) :
    (iblk m c 0 t : Vec F S2048 .f32) (ix1 p) = (V m c main_arg0 : S8192.Idx → F .f32) (ix1 (pos (rowRun t) p)) := by
  unfold iblk
  rw [View.read_apply]
  show V m c main_arg0 _ = V m c main_arg0 _
  congr 1
  funext a
  apply Fin.ext
  match a with
  | ⟨0, _⟩ =>
    show win0_0.index t 0 * 2048 + 1 * p.val = 2048 * (t.val / 4 % 4) + p.val
    rw [(block_index t).1]; omega

/-- Entry `q` of the second input's block at point `t` is `z_t` at position `2048·(t % 4) + q`. -/
theorem second_apply (c : Dev nD) (t : Fin cfg0.N) (q : Fin 2048) :
    (iblk m c 1 t : Vec F S2048 .f32) (ix1 q) = (V m c main_arg1 : S8192.Idx → F .f32) (ix1 (pos (colRun t) q)) := by
  unfold iblk
  rw [View.read_apply]
  show V m c main_arg1 _ = V m c main_arg1 _
  congr 1
  funext a
  apply Fin.ext
  match a with
  | ⟨0, _⟩ =>
    show win0_1.index t 0 * 2048 + 1 * q.val = 2048 * (t.val % 4) + q.val
    rw [(block_index t).2]; omega

end Cert.KernelIdeal.BlockReads

end
-- ==== Proof.Accumulate.lean ====
/-
  The idealized kernel's result over the extended reals.

  Write `z_s`, `z_t` for the two argument arrays as the region finds them. Visiting point `t` of the 4 × 4 grid adds to
  the accumulator the tile sum of run `t / 4` of `z_s` against run `t % 4` of `z_t`; the accumulator is reset to zero just
  before the first visit. By induction on the point, after point `n` the accumulator holds the sum of the tile sums of
  points `0 … n`, so after the last point it holds the sum of all sixteen, which is the whole double sum (only
  re-association and re-ordering of a finite sum: `TileSums.sum_tileAt`). The last visit copies the accumulator into the
  one-entry output block, the only block ever written back, and that block is the whole output array. The lines after
  the region view the one entry as a rank-0 array, take its square root and divide by 8192: the shared last step.
-/
import proofs.«108145_j47476568490545_1_alg».proof.Proof.Gen.KernelIdeal.Frame
import proofs.«108145_j47476568490545_1_alg».proof.Proof.TileSums
import proofs.«108145_j47476568490545_1_alg».proof.Proof.Pieces
import proofs.«108145_j47476568490545_1_alg».proof.Proof.TileValue
import proofs.«108145_j47476568490545_1_alg».proof.Proof.BlockReads
import Idealize.ShloMosaic.Lib.Pipeline.Value
import Idealize.ShloMosaic.Lib.StableHlo.Run
import Idealize.ShloMosaic.Lib.Tactic

set_option maxRecDepth 16384

open scoped BigOperators

noncomputable section

namespace Cert.KernelIdeal.Accumulate

open Cert.KernelIdeal Cert.KernelIdeal.Gen Idealize.ShloMosaic Idealize.ShloMosaic.TcCoe Idealize.ShloMosaic.ValueIdx
  Idealize.SL.Sem Cert.TileSums
open Idealize.ShloMosaic.Pipeline (Dat)

variable (m : (ℓ : Loc nD τ sig) → Buf (Elt Ideal) ℓ) (ρ : Dev nD → PrngReg)

/-- `z_s` as the region finds it, as a sequence of extended reals, -/
abbrev zs (c : Dev nD) : Fin 8192 → EReal := fun a => (V m c main_arg0 : S8192.Idx → Ideal .f32) (ix1 a)
/-- and `z_t`. -/
abbrev zt (c : Dev nD) : Fin 8192 → EReal := fun b => (V m c main_arg1 : S8192.Idx → Ideal .f32) (ix1 b)

/-- One visit: the update at point `t` adds that point's tile sum to whatever the accumulator held. -/
theorem visit (c : Dev nD) (t : Fin cfg0.N) (acc : Vec Ideal S1x1 .f32) (y : S1x1.Idx) :
    k0_pay2 (F := Ideal) (iblk m c 0 t) (iblk m c 1 t) acc y = acc y + tileAt (zs m c) (zt m c) t.val := by
  refine (TileValue.update_apply (iblk m c 0 t) (iblk m c 1 t) acc y).trans ?_
  refine congrArg (fun s : EReal => acc y + s) ?_
  unfold tileAt tile
  exact Finset.sum_congr rfl fun p _ => Finset.sum_congr rfl fun q _ =>
    congr (congrArg sqDiff (BlockReads.first_apply m c t p)) (BlockReads.second_apply m c t q)

/-- After point `n` the accumulator holds the sum of the tile sums of the points up to `n`. -/
theorem acc_after (c : Dev nD) : ∀ (n : ℕ) (hn : n < cfg0.N) (y : S1x1.Idx),
    (outsAt0 m c n hn).2 y = ∑ k ∈ Finset.range (n + 1), tileAt (zs m c) (zt m c) k
  | 0, hn, y => by
    rw [outsAt0_A m c ⟨0, hn⟩ rfl (by dsimp only; omega)]
    dsimp only
    rw [Pieces.acc_first, visit, TileValue.reset_apply, zero_add, Finset.sum_range_one]
  | n + 1, hn, y => by
    have hN : cfg0.N = 16 := N_0
    have h0 : ¬(⟨n + 1, hn⟩ : Fin cfg0.N).val % 16 = 0 := by dsimp only; omega
    have ih := acc_after c n (Nat.lt_of_succ_lt hn) y
    by_cases h1 : (⟨n + 1, hn⟩ : Fin cfg0.N).val % 16 = 15
    · rw [outsAt0_C m c ⟨n + 1, hn⟩ h0 h1]
      dsimp only
      rw [Pieces.acc_last, visit, Finset.sum_range_succ]
      exact congrArg (fun s : EReal => s + tileAt (zs m c) (zt m c) (n + 1)) ih
    · rw [outsAt0_B m c ⟨n + 1, hn⟩ h0 h1]
      dsimp only
      rw [Pieces.acc_mid, visit, Finset.sum_range_succ]
      exact congrArg (fun s : EReal => s + tileAt (zs m c) (zt m c) (n + 1)) ih

/-- The output block after the last point holds the whole sum. -/
theorem out_after_last (c : Dev nD) (hn : 15 < cfg0.N) (y : S1x1.Idx) :
    (outsAt0 m c 15 hn).1 y = total (zs m c) (zt m c) := by
  rw [outsAt0_C m c ⟨15, hn⟩ (by dsimp only; omega) (by dsimp only)]
  dsimp only
  rw [Pieces.out_last, visit]
  have ih := acc_after m c 14 (Nat.lt_of_succ_lt hn) y
  refine (congrArg (fun s : EReal => s + tileAt (zs m c) (zt m c) 15) ih).trans ?_
  exact (Finset.sum_range_succ (fun k => tileAt (zs m c) (zt m c) k) 15).symm.trans (sum_tileAt _ _)

/-- The output array's contents: its one entry is the whole sum. -/
abbrev sumArray (c : Dev nD) : Buf (Elt Ideal) ((c : Thread nD τ).loc main_v0) := fun _ => total (zs m c) (zt m c)

/-- The one write-back, at the last point, writes the whole sum: block `(0, 0)` of the one-entry array, read through zero
    offsets, is the array. -/
theorem flushed_eq (c : Dev nD) (t : Fin cfg0.N) (hf : (cfg0.win 2).flush t = true) :
    (dats m 0 c).flushed 2 t = ((cfg0.win 2).blk t).view.read (Elt Ideal) (sumArray m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2]
  have e : (outsAt0 m c t0_15.val t0_15.isLt).1 = sumArray m c := funext fun y => out_after_last m c _ y
  rw [e]
  have hz' : (fun a => win0_2.index t0_15 a * main_v0.ty.shape.size a) = fun _ => 0 := funext fun a => by fin_cases a <;> decide
  exact (Memref.read_access_unit_zero (Elt Ideal) main_v0 hz' (fun a => by rw [congrFun hz' a]; simp) (sumArray m c)).symm

/-- So the output array ends holding the whole sum: the last point's block covers it. -/
theorem final_out (c : Dev nD) : (dats m 0 c).arrAt 2 cfg0.N = sumArray m c :=
  (dats m 0 c).arrAt_eq_of_cover 2 (sumArray m c) (flushed_eq m c) fun i =>
    ⟨t0_15, (flush0_2 t0_15).mpr rfl, by
      show i ∈ ((View.whole main_v0).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_15 0 * win0_2.size 0 ≤ (i 0 : Nat) ∧ (i 0 : Nat) < win0_2.index t0_15 0 * win0_2.size 0 + win0_2.xsize (grid0.coords t0_15) 0
        rw [show win0_2.index t0_15 0 * win0_2.size 0 = 0 from by decide +kernel, show win0_2.xsize (grid0.coords t0_15) 0 = 1 from by decide +kernel]; omega
      | ⟨1, _⟩ =>
        show win0_2.index t0_15 1 * win0_2.size 1 ≤ (i 1 : Nat) ∧ (i 1 : Nat) < win0_2.index t0_15 1 * win0_2.size 1 + win0_2.xsize (grid0.coords t0_15) 1
        rw [show win0_2.index t0_15 1 * win0_2.size 1 = 0 from by decide +kernel, show win0_2.xsize (grid0.coords t0_15) 1 = 1 from by decide +kernel]; omega⟩

/-- The lines after the region leave the result at the shared last step of the whole sum. -/
theorem tail_eq (c : Dev nD) :
    Pipeline.afterTail₀ cfgs (dats m) 0 (V0 m) [hostOps1] c main_v3 = result (zs m c) (zt m c) := by
  unfold Pipeline.afterTail₀
  show StableHlo.after hostOps1 _ (Proc.devRef .tc main_v3) = _
  after_results
  -- the region leaves the output array at the whole sum; the lines after it read that array
  have e : Pipeline.withArrays (cfgs 0).spec c (V0 m c) (fun w => (dats m 0 c).arrAt w (cfgs 0).N) (Proc.tc.devRef main_v0)
      = sumArray m c :=
    (Pipeline.withArrays_arr spec0 launch0.win.arr_inj c _ _ 2).trans (final_out m c)
  rw [e]
  rfl

/-- The idealized kernel's run: every weakly fair execution ends with the result at the shared last step of the whole sum,
    the two arguments unchanged. -/
theorem run : θ_run defs (onTc (τ := τ) (main (F := Ideal))) ⟨m, fun _ => 0, ρ⟩ fun r => ∀ c : Dev nD,
      r.2.mem ((c.tc : Thread nD τ).loc main_v3) = result (zs m c) (zt m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v3 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Accumulate

end
-- ==== Proof.lean ====
/-
  The kernel computes the Frobenius norm of the 8192 × 8192 array of pairwise differences `z_s[a] - z_t[b]`, divided
  by 8192, without ever forming that array: it visits the 4 × 4 grid of 2048 × 2048 tiles, adds each tile's sum of
  squared differences to a one-entry accumulator that is reset to zero before the first tile, copies the accumulator to
  its one-entry output after the last tile, and the lines after the region take the square root and divide. The
  reference forms the whole array, sums its squares in one reduction starting from zero, takes the square root and
  divides by the same 8192.

  Over the extended reals both end at the same value: each side applies the same last step (square root, division by
  8192) to a sum of the same terms `(z_s[a] - z_t[b])·(z_s[a] - z_t[b])`, grouped by tile and added in the order the
  tiles are visited on one side, added all at once on the other. A finite sum of extended reals does not depend on
  grouping or order (addition is commutative and associative also at the infinities), so the precondition that the
  inputs are finite is never opened. The idealization rewrote nothing, so its conjunct is trivial; the three frames are
  the generated frame of the kernel at both instances and the reference's generated run with its result dropped.

  Modules: TileSums (the arithmetic: tiles, the whole sum, the regrouping law, the shared last step), RefValue (the
  reference read at its one index), Pieces (what one visit stores), TileValue (one visit's update at an index),
  BlockReads (which entries a visit loads), Accumulate (the induction over the visits, the written-back block, the
  lines after the region).
-/
import proofs.«108145_j47476568490545_1_alg».proof.Defs
import proofs.«108145_j47476568490545_1_alg».proof.Proof.Gen.Kernel
import proofs.«108145_j47476568490545_1_alg».proof.Proof.Gen.Kernel.Frame
import proofs.«108145_j47476568490545_1_alg».proof.Proof.Gen.KernelIdeal
import proofs.«108145_j47476568490545_1_alg».proof.Proof.Gen.KernelIdeal.Frame
import proofs.«108145_j47476568490545_1_alg».proof.Proof.Gen.ReferenceIdeal
import proofs.«108145_j47476568490545_1_alg».proof.Proof.Gen.ReferenceIdeal.Run
import proofs.«108145_j47476568490545_1_alg».proof.Proof.Gen.ReferenceIdeal.Read
import proofs.«108145_j47476568490545_1_alg».proof.Proof.Gen.Pre_finite_inputs
import proofs.«108145_j47476568490545_1_alg».proof.Proof.TileSums
import proofs.«108145_j47476568490545_1_alg».proof.Proof.RefValue
import proofs.«108145_j47476568490545_1_alg».proof.Proof.Accumulate
import Idealize.ShloMosaic.Adequacy
import Idealize.ShloMosaic.Init

noncomputable section

namespace Cert.Proof

open Idealize.ShloMosaic Idealize.SL.Sem

/-- The kernel as printed runs, faults nowhere and leaves its arguments as they were. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `z_s` and `z_t` both programs end with the shared last step applied to the whole sum of
    squared differences: the kernel by adding the sixteen tile sums in visiting order, the reference in one reduction. -/
theorem algebraic : Cert.algebraic_KernelIdeal_ReferenceIdeal := by
  intro m ρ m' ρ' _ hagree
  refine ⟨fun c => Cert.TileSums.result (Cert.KernelIdeal.Accumulate.zs m c) (Cert.KernelIdeal.Accumulate.zt m c),
    Cert.KernelIdeal.Accumulate.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
